-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x64 : Shape := ⟨2, ![100000, 64]⟩
abbrev S50000x64 : Shape := ⟨2, ![50000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S1000000 32) (main_arg1 : IVec S1000000 32) (main_arg2 : FVec F S100000x64 .f32) (main_arg3 : FVec F S50000x64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S1000000 : Shape := ⟨1, ![1000000]⟩
abbrev S100000x64 : Shape := ⟨2, ![100000, 64]⟩
abbrev S50000x64 : Shape := ⟨2, ![50000, 64]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩
abbrev S10000x1 : Shape := ⟨2, ![10000, 1]⟩
abbrev S10000x64 : Shape := ⟨2, ![10000, 64]⟩

abbrev nBuf : Space → Nat
  | .hbm => 101
  | .vmem => 36
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x64, .f32⟩
  | .hbm, ⟨3, _⟩ => ⟨S50000x64, .f32⟩
  | .hbm, ⟨4, _⟩ => ⟨S_, .i32⟩
  | .hbm, ⟨5, _⟩ => ⟨S1000000, .i32⟩
  | .hbm, ⟨6, _⟩ => ⟨S1000000, .i32⟩
  | .hbm, ⟨7, _⟩ => ⟨S2000000, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S150000, .f32⟩
  | .hbm, ⟨16, _⟩ => ⟨S2000000x1, .i32⟩
  | .hbm, ⟨17, _⟩ => ⟨S150000, .f32⟩
  | .hbm, ⟨18, _⟩ => ⟨S_, .f32⟩
  | .hbm, ⟨19, _⟩ => ⟨S150000, .f32⟩
  | .hbm, ⟨20, _⟩ => ⟨S150000, .i1⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000, .f32⟩
  | .hbm, ⟨47, _⟩ => ⟨S2000000, .f32⟩
  | .hbm, ⟨48, _⟩ => ⟨S150000x64, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x64, .f32⟩
  | .hbm, ⟨58, _⟩ => ⟨S2000000x1, .f32⟩
  | .hbm, ⟨59, _⟩ => ⟨S2000000x64, .f32⟩
  | .hbm, ⟨60, _⟩ => ⟨S_, .f32⟩
  | .hbm, ⟨61, _⟩ => ⟨S150000x64, .f32⟩
  | .hbm, ⟨62, _⟩ => ⟨S2000000x1, .i32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x64, .f32⟩
  | .hbm, ⟨74, _⟩ => ⟨S2000000x1, .f32⟩
  | .hbm, ⟨75, _⟩ => ⟨S2000000x64, .f32⟩
  | .hbm, ⟨76, _⟩ => ⟨S_, .f32⟩
  | .hbm, ⟨77, _⟩ => ⟨S150000x64, .f32⟩
  | .hbm, ⟨78, _⟩ => ⟨S2000000x1, .i32⟩
  | .hbm, ⟨79, _⟩ => ⟨S150000x64, .f32⟩
  | .hbm, ⟨80, _⟩ => ⟨S150000x64, .f32⟩
  | .hbm, ⟨81, _⟩ => ⟨S_, .i32⟩
  | .hbm, ⟨82, _⟩ => ⟨S2000000, .i32⟩
  | .hbm, ⟨83, _⟩ => ⟨S2000000, .i1⟩
  | .hbm, ⟨84, _⟩ => ⟨S_, .i32⟩
  | .hbm, ⟨85, _⟩ => ⟨S2000000, .i32⟩
  | .hbm, ⟨86, _⟩ => ⟨S2000000, .i32⟩
  | .hbm, ⟨87, _⟩ => ⟨S2000000, .i32⟩
  | .hbm, ⟨88, _⟩ => ⟨S2000000x1, .i32⟩
  | .hbm, ⟨89, _⟩ => ⟨S2000000x64, .f32⟩
  | .hbm, ⟨90, _⟩ => ⟨S2000000x1, .f32⟩
  | .hbm, ⟨91, _⟩ => ⟨S2000000x64, .f32⟩
  | .hbm, ⟨92, _⟩ => ⟨S_, .f32⟩
  | .hbm, ⟨93, _⟩ => ⟨S150000x64, .f32⟩
  | .hbm, ⟨94, _⟩ => ⟨S2000000x1, .i32⟩
  | .hbm, ⟨95, _⟩ => ⟨S150000x64, .f32⟩
  | .hbm, ⟨96, _⟩ => ⟨S150000x64, .f32⟩
  | .hbm, ⟨97, _⟩ => ⟨S_, .f32⟩
  | .hbm, ⟨98, _⟩ => ⟨S150000x64, .f32⟩
  | .hbm, ⟨99, _⟩ => ⟨S150000x64, .f32⟩
  | .hbm, ⟨100, _⟩ => ⟨S100000x64, .f32⟩
  | .local _ .vmem, ⟨0, _⟩ => ⟨S10000x1, .f32⟩
  | .local _ .vmem, ⟨1, _⟩ => ⟨S10000x1, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .f32⟩
  | .local _ .vmem, ⟨13, _⟩ => ⟨S10000x1, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x1, .f32⟩
  | .local _ .vmem, ⟨25, _⟩ => ⟨S10000x1, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_c_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  shapeCasts_S2000000_S2000000x1 : S2000000.ShapeCasts S2000000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S150000x64 : S_.BroadcastsInDim S150000x64 (![] : Fin 0 → Fin S150000x64.rank)
  slices_S150000x64_S100000x64_0_0 : S150000x64.Slices ![0, 0] S100000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S2000000x1.size a
  hwx0_0 : ∀ i : grid0.Coords, EltTy.bits .f32 = 32 ∨ (Rect.block (s := S2000000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S2000000x64.size a
  hwx0_1 : ∀ i : grid0.Coords, EltTy.bits .f32 = 32 ∨ (Rect.block (s := S2000000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S2000000x64.size a
  hwx0_2 : ∀ i : grid0.Coords, EltTy.bits .f32 = 32 ∨ (Rect.block (s := S2000000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S150000x64.size a
  hwx1_2 : ∀ i : grid1.Coords, EltTy.bits .f32 = 32 ∨ (Rect.block (s := S150000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S2000000x1.size a
  hwx2_0 : ∀ i : grid2.Coords, EltTy.bits .f32 = 32 ∨ (Rect.block (s := S2000000x1) S10000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S2000000x64.size a
  hwx2_1 : ∀ i : grid2.Coords, EltTy.bits .f32 = 32 ∨ (Rect.block (s := S2000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S2000000x64.size a
  hwx2_2 : ∀ i : grid2.Coords, EltTy.bits .f32 = 32 ∨ (Rect.block (s := S2000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S150000x64.size a
  hwx3_1 : ∀ i : grid3.Coords, EltTy.bits .f32 = 32 ∨ (Rect.block (s := S150000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S150000x64.size a
  hwx3_2 : ∀ i : grid3.Coords, EltTy.bits .f32 = 32 ∨ (Rect.block (s := S150000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S2000000x1.size a
  hwx4_0 : ∀ i : grid4.Coords, EltTy.bits .f32 = 32 ∨ (Rect.block (s := S2000000x1) S10000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S2000000x64.size a
  hwx4_1 : ∀ i : grid4.Coords, EltTy.bits .f32 = 32 ∨ (Rect.block (s := S2000000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S2000000x64.size a
  hwx4_2 : ∀ i : grid4.Coords, EltTy.bits .f32 = 32 ∨ (Rect.block (s := S2000000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S150000x64.size a
  hwx5_0 : ∀ i : grid5.Coords, EltTy.bits .f32 = 32 ∨ (Rect.block (s := S150000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S150000x64.size a
  hwx5_1 : ∀ i : grid5.Coords, EltTy.bits .f32 = 32 ∨ (Rect.block (s := S150000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S150000x64.size a
  hwx5_2 : ∀ i : grid5.Coords, EltTy.bits .f32 = 32 ∨ (Rect.block (s := S150000x64) S10000x64.size (cc5_transform_2 i) (hinb5_2 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v39) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1000000 : Shape := ⟨1, ![1000000]⟩
abbrev S100000x64 : Shape := ⟨2, ![100000, 64]⟩
abbrev S50000x64 : Shape := ⟨2, ![50000, 64]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩

abbrev nBuf : Space → Nat
  | .hbm => 104
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x64, .f32⟩
  | .hbm, ⟨3, _⟩ => ⟨S50000x64, .f32⟩
  | .hbm, ⟨4, _⟩ => ⟨S_, .i32⟩
  | .hbm, ⟨5, _⟩ => ⟨S1000000, .i32⟩
  | .hbm, ⟨6, _⟩ => ⟨S1000000, .i32⟩
  | .hbm, ⟨7, _⟩ => ⟨S2000000, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S150000, .f32⟩
  | .hbm, ⟨16, _⟩ => ⟨S2000000x1, .i32⟩
  | .hbm, ⟨17, _⟩ => ⟨S150000, .f32⟩
  | .hbm, ⟨18, _⟩ => ⟨S_, .f32⟩
  | .hbm, ⟨19, _⟩ => ⟨S150000, .f32⟩
  | .hbm, ⟨20, _⟩ => ⟨S150000, .i1⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000, .f32⟩
  | .hbm, ⟨47, _⟩ => ⟨S2000000, .f32⟩
  | .hbm, ⟨48, _⟩ => ⟨S150000x64, .f32⟩
  | .hbm, ⟨49, _⟩ => ⟨S2000000x1, .f32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x64, .f32⟩
  | .hbm, ⟨59, _⟩ => ⟨S2000000x64, .f32⟩
  | .hbm, ⟨60, _⟩ => ⟨S2000000x64, .f32⟩
  | .hbm, ⟨61, _⟩ => ⟨S_, .f32⟩
  | .hbm, ⟨62, _⟩ => ⟨S150000x64, .f32⟩
  | .hbm, ⟨63, _⟩ => ⟨S2000000x1, .i32⟩
  | .hbm, ⟨64, _⟩ => ⟨S150000x64, .f32⟩
  | .hbm, ⟨65, _⟩ => ⟨S150000x64, .f32⟩
  | .hbm, ⟨66, _⟩ => ⟨S2000000x1, .f32⟩
  | .hbm, ⟨67, _⟩ => ⟨S_, .i32⟩
  | .hbm, ⟨68, _⟩ => ⟨S2000000, .i32⟩
  | .hbm, ⟨69, _⟩ => ⟨S2000000, .i1⟩
  | .hbm, ⟨70, _⟩ => ⟨S_, .i32⟩
  | .hbm, ⟨71, _⟩ => ⟨S2000000, .i32⟩
  | .hbm, ⟨72, _⟩ => ⟨S2000000, .i32⟩
  | .hbm, ⟨73, _⟩ => ⟨S2000000, .i32⟩
  | .hbm, ⟨74, _⟩ => ⟨S2000000x1, .i32⟩
  | .hbm, ⟨75, _⟩ => ⟨S2000000x64, .f32⟩
  | .hbm, ⟨76, _⟩ => ⟨S2000000x64, .f32⟩
  | .hbm, ⟨77, _⟩ => ⟨S2000000x64, .f32⟩
  | .hbm, ⟨78, _⟩ => ⟨S_, .f32⟩
  | .hbm, ⟨79, _⟩ => ⟨S150000x64, .f32⟩
  | .hbm, ⟨80, _⟩ => ⟨S2000000x1, .i32⟩
  | .hbm, ⟨81, _⟩ => ⟨S150000x64, .f32⟩
  | .hbm, ⟨82, _⟩ => ⟨S150000x64, .f32⟩
  | .hbm, ⟨83, _⟩ => ⟨S2000000x1, .f32⟩
  | .hbm, ⟨84, _⟩ => ⟨S_, .i32⟩
  | .hbm, ⟨85, _⟩ => ⟨S2000000, .i32⟩
  | .hbm, ⟨86, _⟩ => ⟨S2000000, .i1⟩
  | .hbm, ⟨87, _⟩ => ⟨S_, .i32⟩
  | .hbm, ⟨88, _⟩ => ⟨S2000000, .i32⟩
  | .hbm, ⟨89, _⟩ => ⟨S2000000, .i32⟩
  | .hbm, ⟨90, _⟩ => ⟨S2000000, .i32⟩
  | .hbm, ⟨91, _⟩ => ⟨S2000000x1, .i32⟩
  | .hbm, ⟨92, _⟩ => ⟨S2000000x64, .f32⟩
  | .hbm, ⟨93, _⟩ => ⟨S2000000x64, .f32⟩
  | .hbm, ⟨94, _⟩ => ⟨S2000000x64, .f32⟩
  | .hbm, ⟨95, _⟩ => ⟨S_, .f32⟩
  | .hbm, ⟨96, _⟩ => ⟨S150000x64, .f32⟩
  | .hbm, ⟨97, _⟩ => ⟨S2000000x1, .i32⟩
  | .hbm, ⟨98, _⟩ => ⟨S150000x64, .f32⟩
  | .hbm, ⟨99, _⟩ => ⟨S150000x64, .f32⟩
  | .hbm, ⟨100, _⟩ => ⟨S_, .f32⟩
  | .hbm, ⟨101, _⟩ => ⟨S150000x64, .f32⟩
  | .hbm, ⟨102, _⟩ => ⟨S150000x64, .f32⟩
  | .hbm, ⟨103, _⟩ => ⟨S100000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_c_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.KernelRun.lean ====
/-
  The idealized kernel's whole run, with the RESULT named.

  @main is fifteen segments: stretches of host operations and the six tiled regions between them. The contents of the
  TensorCore's buffers at each segment boundary are a fold from the launch memory (`Gen.W0 … Gen.W15`: a host stretch
  applies its operations, a region replaces its output array by what its write-backs leave). The segments' chain ends
  with every unscoped buffer at the last boundary's contents `Gen.W15`; a frame keeps of that only the four
  arguments, and here the result buffer is kept as well: every weakly fair execution of @main terminates, nothing faults,
  the result array ends at `W15` read at the result buffer, and the arguments end as launched.
-/
import proofs.«168864_j50646254355232_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents read at the result buffer, and the four argument arrays end as launched. -/
theorem run : θ_run defs (onTc (τ := τ) (main (F := F))) ⟨m, fun _ => 0, ρ⟩ (fun r => ∀ c : Dev nD,
      r.2.mem ((c.tc : Thread nD τ).loc main_v73) = W15 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v73 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c)⟩)

end Cert.KernelIdeal.Whole

end
-- ==== Proof.Tiles.lean ====
/-
  What each of the six tiled regions leaves in its output array, as ONE function of the two arrays it reads.

  The three multiply regions walk the 2,000,000 edge rows in 200 tiles of 10000 rows: the body broadcasts the tile's
  one-column weight block along the 64 lanes and multiplies, so the output array is the input array with every row
  scaled by that row's weight (`scaleRows`). The three add regions walk the 150,000 node rows in 15 tiles of 10000
  rows and add entrywise, so the output array is the entrywise sum of the two input arrays. In every region tile `t` of
  each window is rows `10000 t … 10000 t + 9999`, all columns: an entry of the tile is the array's entry at the same
  place, the tiles are pairwise disjoint and cover the output, and what the output holds after the region does not depend
  on how the grid is walked.

  Everything is stated at an arbitrary float instance and at ARBITRARY entry contents `V` of the TensorCore's buffers, so
  each statement serves whatever the host operations before the region left there. Last, `scaleRows_reshape`: scaling
  rows by the column `[n] → [n, 1]` reshaped from a vector is the entrywise product with that vector broadcast to a
  column and then along the rows (both read the vector at the entry's row).
-/
import proofs.«168864_j50646254355232_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The row of an entry of a 64-column array, as an index into a one-column array of as many rows. -/
def rowOf (i : S2000000x64.Idx) : S2000000x1.Idx := fun a => match a with
  | ⟨0, _⟩ => ⟨(i 0).val, (i 0).isLt⟩
  | ⟨1, _⟩ => ⟨0, Nat.one_pos⟩

/-- The same inside one tile of 10000 rows. -/
def rowOfTile (j : S10000x64.Idx) : S10000x1.Idx := fun a => match a with
  | ⟨0, _⟩ => ⟨(j 0).val, (j 0).isLt⟩
  | ⟨1, _⟩ => ⟨0, Nat.one_pos⟩

/-- Every row of `x` scaled by that row's entry of the column `w`. -/
def scaleRows (w : S2000000x1.Idx → Elt F .f32) (x : S2000000x64.Idx → Elt F .f32) : S2000000x64.Idx → Elt F .f32 :=
  fun i => FloatOps.mulf (w (rowOf i)) (x i)

/-! ## Region 0 -/

/-- The multiply body at an entry of its tile: the tile's row weight times the entry. -/
theorem mul0_payload (x0 : Vec F S10000x1 .f32) (x1 : Vec F S10000x64 .f32) :
    k0_pay1 x0 x1 = fun j => FloatOps.mulf (x0 (rowOfTile j)) (x1 j) := by
  unfold k0_pay1
  try dsimp only
  rw [shapeCast_self, shapeCast_self, shapeCast_self]
  funext j
  show FloatOps.mulf (broadcastTo S10000x64 x0 broadcasts_S10000x1_S10000x64 j) (x1 j) = _
  rw [broadcastTo_apply x0 broadcasts_S10000x1_S10000x64 j (rowOfTile j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- The printed index maps over the grid: tile `t` of every window is rows `10000 t …`, all columns. -/
theorem tiles0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the row-scaled array. -/
theorem flushed0 (c : Dev nD) (t : Fin cfg0.N) :
    (dat0 V c).flushed 2 t = ((cfg0.win 2).blk t).view.read (Elt F) (scaleRows (V c main_v39) (V c main_v38)) := by
  show (cfg0.win 2).cut (grid0.coords t) ((dat0 V c).after 2 t) = _
  rw [after0_2]
  unfold out0_2
  rw [View.canon_unit_zero zero_offsets]
  simp only [View.ld_unit_zero (S := S10000x1) zero_offsets, View.ld_unit_zero (S := S10000x64) zero_offsets]
  obtain ⟨e0, e1, e2, e3, e4, e5⟩ := tiles0 t
  rw [mul0_payload]
  funext j
  show FloatOps.mulf (V c main_v39 (((cfg0.win 0).blk t).view.emb (rowOfTile j))) (V c main_v38 (((cfg0.win 1).blk t).view.emb j))
    = FloatOps.mulf (V c main_v39 (rowOf (((cfg0.win 2).blk t).view.emb j))) (V c main_v38 (((cfg0.win 2).blk t).view.emb j))
  have h0 : ((cfg0.win 0).blk t).view.emb (rowOfTile j) = rowOf (((cfg0.win 2).blk t).view.emb j) := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 1 + 1 * 0 = 0; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-- An index of the output is in point `t`'s tile iff each coordinate is in the tile's range on its axis. -/
theorem mem_tile0 (t : Fin cfg0.N) (i : S2000000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v40).slice (win0_2.rect t)).set ↔ _
  rw [View.set_slice_whole, Rect.mem_set_unit]
  exact Iff.rfl

/-- The 200 tiles cover the output: row `r` lies in tile `r / 10000`. -/
theorem cover0 (i : S2000000x64.Idx) : ∃ t : Fin cfg0.N, (cfg0.win 2).flush t = true ∧ i ∈ ((cfg0.win 2).blk t).view.set := by
  have hi0 : (i 0).val < 2000000 := (i 0).isLt
  have hi1 : (i 1).val < 64 := (i 1).isLt
  have hN : grid0.N = 200 := N_0
  let t : Fin cfg0.N := ⟨(i 0).val / 10000, by show (i 0).val / 10000 < grid0.N; omega⟩
  obtain ⟨-, -, -, -, e4, e5⟩ := tiles0 t
  have ht : t.val = (i 0).val / 10000 := rfl
  refine ⟨t, flush0_2 t, ?_⟩
  rw [mem_tile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 leaves in its output array the row-scaled array of what it found in its two inputs. -/
theorem array0 (c : Dev nD) : (dat0 V c).arrAt 2 cfg0.N = scaleRows (V c main_v39) (V c main_v38) :=
  (dat0 V c).arrAt_eq_of_cover 2 _ (fun t _ => flushed0 V c t) cover0

/-! ## Region 1 -/

/-- The add body: the entrywise sum of its two tiles. -/
theorem add1_payload (x0 x1 : Vec F S10000x64 .f32) : k1_pay1 x0 x1 = addf x0 x1 := by
  unfold k1_pay1
  try dsimp only
  rw [shapeCast_self, shapeCast_self]

theorem tiles1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the entrywise sum. -/
theorem flushed1 (c : Dev nD) (t : Fin cfg1.N) :
    (dat1 V c).flushed 2 t = ((cfg1.win 2).blk t).view.read (Elt F) (addf (F := F) (s := S150000x64) (φ := .f32) (V c main_v31) (V c main_v43)) := by
  show (cfg1.win 2).cut (grid1.coords t) ((dat1 V c).after 2 t) = _
  rw [after1_2]
  unfold out1_2
  rw [View.canon_unit_zero zero_offsets]
  simp only [View.ld_unit_zero (S := S10000x64) zero_offsets]
  obtain ⟨e0, e1, e2, e3, e4, e5⟩ := tiles1 t
  rw [add1_payload]
  funext j
  show FloatOps.addf (V c main_v31 (((cfg1.win 0).blk t).view.emb j)) (V c main_v43 (((cfg1.win 1).blk t).view.emb j))
    = FloatOps.addf (V c main_v31 (((cfg1.win 2).blk t).view.emb j)) (V c main_v43 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

theorem mem_tile1 (t : Fin cfg1.N) (i : S150000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- The 15 tiles cover the output. -/
theorem cover1 (i : S150000x64.Idx) : ∃ t : Fin cfg1.N, (cfg1.win 2).flush t = true ∧ i ∈ ((cfg1.win 2).blk t).view.set := by
  have hi0 : (i 0).val < 150000 := (i 0).isLt
  have hi1 : (i 1).val < 64 := (i 1).isLt
  have hN : grid1.N = 15 := N_1
  let t : Fin cfg1.N := ⟨(i 0).val / 10000, by show (i 0).val / 10000 < grid1.N; omega⟩
  obtain ⟨-, -, -, -, e4, e5⟩ := tiles1 t
  have ht : t.val = (i 0).val / 10000 := rfl
  refine ⟨t, flush1_2 t, ?_⟩
  rw [mem_tile1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- Region 1 leaves in its output array the entrywise sum of what it found in its two inputs. -/
theorem array1 (c : Dev nD) : (dat1 V c).arrAt 2 cfg1.N = addf (F := F) (s := S150000x64) (φ := .f32) (V c main_v31) (V c main_v43) :=
  (dat1 V c).arrAt_eq_of_cover 2 _ (fun t _ => flushed1 V c t) cover1

/-! ## Region 2 -/

/-- The multiply body at an entry of its tile: the tile's row weight times the entry. -/
theorem mul2_payload (x0 : Vec F S10000x1 .f32) (x1 : Vec F S10000x64 .f32) :
    k2_pay1 x0 x1 = fun j => FloatOps.mulf (x0 (rowOfTile j)) (x1 j) := by
  unfold k2_pay1
  try dsimp only
  rw [shapeCast_self, shapeCast_self, shapeCast_self]
  funext j
  show FloatOps.mulf (broadcastTo S10000x64 x0 broadcasts_S10000x1_S10000x64 j) (x1 j) = _
  rw [broadcastTo_apply x0 broadcasts_S10000x1_S10000x64 j (rowOfTile j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- The printed index maps over the grid: tile `t` of every window is rows `10000 t …`, all columns. -/
theorem tiles2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the row-scaled array. -/
theorem flushed2 (c : Dev nD) (t : Fin cfg2.N) :
    (dat2 V c).flushed 2 t = ((cfg2.win 2).blk t).view.read (Elt F) (scaleRows (V c main_v52) (V c main_v51)) := by
  show (cfg2.win 2).cut (grid2.coords t) ((dat2 V c).after 2 t) = _
  rw [after2_2]
  unfold out2_2
  rw [View.canon_unit_zero zero_offsets]
  simp only [View.ld_unit_zero (S := S10000x1) zero_offsets, View.ld_unit_zero (S := S10000x64) zero_offsets]
  obtain ⟨e0, e1, e2, e3, e4, e5⟩ := tiles2 t
  rw [mul2_payload]
  funext j
  show FloatOps.mulf (V c main_v52 (((cfg2.win 0).blk t).view.emb (rowOfTile j))) (V c main_v51 (((cfg2.win 1).blk t).view.emb j))
    = FloatOps.mulf (V c main_v52 (rowOf (((cfg2.win 2).blk t).view.emb j))) (V c main_v51 (((cfg2.win 2).blk t).view.emb j))
  have h0 : ((cfg2.win 0).blk t).view.emb (rowOfTile j) = rowOf (((cfg2.win 2).blk t).view.emb j) := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 1 + 1 * 0 = 0; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  rw [h0, h1]

/-- An index of the output is in point `t`'s tile iff each coordinate is in the tile's range on its axis. -/
theorem mem_tile2 (t : Fin cfg2.N) (i : S2000000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

/-- The 200 tiles cover the output: row `r` lies in tile `r / 10000`. -/
theorem cover2 (i : S2000000x64.Idx) : ∃ t : Fin cfg2.N, (cfg2.win 2).flush t = true ∧ i ∈ ((cfg2.win 2).blk t).view.set := by
  have hi0 : (i 0).val < 2000000 := (i 0).isLt
  have hi1 : (i 1).val < 64 := (i 1).isLt
  have hN : grid2.N = 200 := N_2
  let t : Fin cfg2.N := ⟨(i 0).val / 10000, by show (i 0).val / 10000 < grid2.N; omega⟩
  obtain ⟨-, -, -, -, e4, e5⟩ := tiles2 t
  have ht : t.val = (i 0).val / 10000 := rfl
  refine ⟨t, flush2_2 t, ?_⟩
  rw [mem_tile2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- Region 2 leaves in its output array the row-scaled array of what it found in its two inputs. -/
theorem array2 (c : Dev nD) : (dat2 V c).arrAt 2 cfg2.N = scaleRows (V c main_v52) (V c main_v51) :=
  (dat2 V c).arrAt_eq_of_cover 2 _ (fun t _ => flushed2 V c t) cover2

/-! ## Region 3 -/

/-- The add body: the entrywise sum of its two tiles. -/
theorem add3_payload (x0 x1 : Vec F S10000x64 .f32) : k3_pay1 x0 x1 = addf x0 x1 := by
  unfold k3_pay1
  try dsimp only
  rw [shapeCast_self, shapeCast_self]

theorem tiles3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the entrywise sum. -/
theorem flushed3 (c : Dev nD) (t : Fin cfg3.N) :
    (dat3 V c).flushed 2 t = ((cfg3.win 2).blk t).view.read (Elt F) (addf (F := F) (s := S150000x64) (φ := .f32) (V c main_v44) (V c main_v56)) := by
  show (cfg3.win 2).cut (grid3.coords t) ((dat3 V c).after 2 t) = _
  rw [after3_2]
  unfold out3_2
  rw [View.canon_unit_zero zero_offsets]
  simp only [View.ld_unit_zero (S := S10000x64) zero_offsets]
  obtain ⟨e0, e1, e2, e3, e4, e5⟩ := tiles3 t
  rw [add3_payload]
  funext j
  show FloatOps.addf (V c main_v44 (((cfg3.win 0).blk t).view.emb j)) (V c main_v56 (((cfg3.win 1).blk t).view.emb j))
    = FloatOps.addf (V c main_v44 (((cfg3.win 2).blk t).view.emb j)) (V c main_v56 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  rw [h0, h1]

theorem mem_tile3 (t : Fin cfg3.N) (i : S150000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v57).slice (win3_2.rect t)).set ↔ _
  rw [View.set_slice_whole, Rect.mem_set_unit]
  exact Iff.rfl

/-- The 15 tiles cover the output. -/
theorem cover3 (i : S150000x64.Idx) : ∃ t : Fin cfg3.N, (cfg3.win 2).flush t = true ∧ i ∈ ((cfg3.win 2).blk t).view.set := by
  have hi0 : (i 0).val < 150000 := (i 0).isLt
  have hi1 : (i 1).val < 64 := (i 1).isLt
  have hN : grid3.N = 15 := N_3
  let t : Fin cfg3.N := ⟨(i 0).val / 10000, by show (i 0).val / 10000 < grid3.N; omega⟩
  obtain ⟨-, -, -, -, e4, e5⟩ := tiles3 t
  have ht : t.val = (i 0).val / 10000 := rfl
  refine ⟨t, flush3_2 t, ?_⟩
  rw [mem_tile3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- Region 3 leaves in its output array the entrywise sum of what it found in its two inputs. -/
theorem array3 (c : Dev nD) : (dat3 V c).arrAt 2 cfg3.N = addf (F := F) (s := S150000x64) (φ := .f32) (V c main_v44) (V c main_v56) :=
  (dat3 V c).arrAt_eq_of_cover 2 _ (fun t _ => flushed3 V c t) cover3

/-! ## Region 4 -/

/-- The multiply body at an entry of its tile: the tile's row weight times the entry. -/
theorem mul4_payload (x0 : Vec F S10000x1 .f32) (x1 : Vec F S10000x64 .f32) :
    k4_pay1 x0 x1 = fun j => FloatOps.mulf (x0 (rowOfTile j)) (x1 j) := by
  unfold k4_pay1
  try dsimp only
  rw [shapeCast_self, shapeCast_self, shapeCast_self]
  funext j
  show FloatOps.mulf (broadcastTo S10000x64 x0 broadcasts_S10000x1_S10000x64 j) (x1 j) = _
  rw [broadcastTo_apply x0 broadcasts_S10000x1_S10000x64 j (rowOfTile j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- The printed index maps over the grid: tile `t` of every window is rows `10000 t …`, all columns. -/
theorem tiles4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is tile `t` of the row-scaled array. -/
theorem flushed4 (c : Dev nD) (t : Fin cfg4.N) :
    (dat4 V c).flushed 2 t = ((cfg4.win 2).blk t).view.read (Elt F) (scaleRows (V c main_v65) (V c main_v64)) := by
  show (cfg4.win 2).cut (grid4.coords t) ((dat4 V c).after 2 t) = _
  rw [after4_2]
  unfold out4_2
  rw [View.canon_unit_zero zero_offsets]
  simp only [View.ld_unit_zero (S := S10000x1) zero_offsets, View.ld_unit_zero (S := S10000x64) zero_offsets]
  obtain ⟨e0, e1, e2, e3, e4, e5⟩ := tiles4 t
  rw [mul4_payload]
  funext j
  show FloatOps.mulf (V c main_v65 (((cfg4.win 0).blk t).view.emb (rowOfTile j))) (V c main_v64 (((cfg4.win 1).blk t).view.emb j))
    = FloatOps.mulf (V c main_v65 (rowOf (((cfg4.win 2).blk t).view.emb j))) (V c main_v64 (((cfg4.win 2).blk t).view.emb j))
  have h0 : ((cfg4.win 0).blk t).view.emb (rowOfTile j) = rowOf (((cfg4.win 2).blk t).view.emb j) := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 1 + 1 * 0 = 0; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  rw [h0, h1]

/-- An index of the output is in point `t`'s tile iff each coordinate is in the tile's range on its axis. -/
theorem mem_tile4 (t : Fin cfg4.N) (i : S2000000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v66).slice (win4_2.rect t)).set ↔ _
  rw [View.set_slice_whole, Rect.mem_set_unit]
  exact Iff.rfl

/-- The 200 tiles cover the output: row `r` lies in tile `r / 10000`. -/
theorem cover4 (i : S2000000x64.Idx) : ∃ t : Fin cfg4.N, (cfg4.win 2).flush t = true ∧ i ∈ ((cfg4.win 2).blk t).view.set := by
  have hi0 : (i 0).val < 2000000 := (i 0).isLt
  have hi1 : (i 1).val < 64 := (i 1).isLt
  have hN : grid4.N = 200 := N_4
  let t : Fin cfg4.N := ⟨(i 0).val / 10000, by show (i 0).val / 10000 < grid4.N; omega⟩
  obtain ⟨-, -, -, -, e4, e5⟩ := tiles4 t
  have ht : t.val = (i 0).val / 10000 := rfl
  refine ⟨t, flush4_2 t, ?_⟩
  rw [mem_tile4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- Region 4 leaves in its output array the row-scaled array of what it found in its two inputs. -/
theorem array4 (c : Dev nD) : (dat4 V c).arrAt 2 cfg4.N = scaleRows (V c main_v65) (V c main_v64) :=
  (dat4 V c).arrAt_eq_of_cover 2 _ (fun t _ => flushed4 V c t) cover4

/-! ## Region 5 -/

/-- The add body: the entrywise sum of its two tiles. -/
theorem add5_payload (x0 x1 : Vec F S10000x64 .f32) : k5_pay1 x0 x1 = addf x0 x1 := by
  unfold k5_pay1
  try dsimp only
  rw [shapeCast_self, shapeCast_self]

theorem tiles5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is tile `t` of the entrywise sum. -/
theorem flushed5 (c : Dev nD) (t : Fin cfg5.N) :
    (dat5 V c).flushed 2 t = ((cfg5.win 2).blk t).view.read (Elt F) (addf (F := F) (s := S150000x64) (φ := .f32) (V c main_v57) (V c main_v69)) := by
  show (cfg5.win 2).cut (grid5.coords t) ((dat5 V c).after 2 t) = _
  rw [after5_2]
  unfold out5_2
  rw [View.canon_unit_zero zero_offsets]
  simp only [View.ld_unit_zero (S := S10000x64) zero_offsets]
  obtain ⟨e0, e1, e2, e3, e4, e5⟩ := tiles5 t
  rw [add5_payload]
  funext j
  show FloatOps.addf (V c main_v57 (((cfg5.win 0).blk t).view.emb j)) (V c main_v69 (((cfg5.win 1).blk t).view.emb j))
    = FloatOps.addf (V c main_v57 (((cfg5.win 2).blk t).view.emb j)) (V c main_v69 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

theorem mem_tile5 (t : Fin cfg5.N) (i : S150000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v70).slice (win5_2.rect t)).set ↔ _
  rw [View.set_slice_whole, Rect.mem_set_unit]
  exact Iff.rfl

/-- The 15 tiles cover the output. -/
theorem cover5 (i : S150000x64.Idx) : ∃ t : Fin cfg5.N, (cfg5.win 2).flush t = true ∧ i ∈ ((cfg5.win 2).blk t).view.set := by
  have hi0 : (i 0).val < 150000 := (i 0).isLt
  have hi1 : (i 1).val < 64 := (i 1).isLt
  have hN : grid5.N = 15 := N_5
  let t : Fin cfg5.N := ⟨(i 0).val / 10000, by show (i 0).val / 10000 < grid5.N; omega⟩
  obtain ⟨-, -, -, -, e4, e5⟩ := tiles5 t
  have ht : t.val = (i 0).val / 10000 := rfl
  refine ⟨t, flush5_2 t, ?_⟩
  rw [mem_tile5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- Region 5 leaves in its output array the entrywise sum of what it found in its two inputs. -/
theorem array5 (c : Dev nD) : (dat5 V c).arrAt 2 cfg5.N = addf (F := F) (s := S150000x64) (φ := .f32) (V c main_v57) (V c main_v69) :=
  (dat5 V c).arrAt_eq_of_cover 2 _ (fun t _ => flushed5 V c t) cover5

/-! ## Scaling rows by a column that is a reshaped vector -/

/-- The row of an entry, as an index into a vector of as many entries as the array has rows. -/
def rowIx (i : S2000000x64.Idx) : S2000000.Idx := fun a => match a with
  | ⟨0, _⟩ => ⟨(i 0).val, (i 0).isLt⟩

/-- Scaling the rows of `x` by the column `[n] → [n, 1]` reshaped from a vector `w` is the entrywise product of `x`
    with `w` broadcast first to a column and then along the rows: both read `w` at the entry's row. -/
theorem scaleRows_reshape (w : S2000000.Idx → Elt F .f32) (x : S2000000x64.Idx → Elt F .f32)
    (hn : S2000000.ShapeCasts S2000000x1)
    (hb1 : S2000000.BroadcastsInDim S2000000x1 ![0]) (hb2 : S2000000x1.BroadcastsInDim S2000000x64 ![0, 1]) :
    scaleRows (fun i => shapeCast S2000000x1 w hn i) x
      = mulf (F := F) (s := S2000000x64) (φ := .f32) (broadcastInDim S2000000x64 ![0, 1] hb2 (broadcastInDim S2000000x1 ![0] hb1 w)) x := by
  funext i
  show FloatOps.mulf (shapeCast S2000000x1 w hn (rowOf i)) (x i)
    = FloatOps.mulf (broadcastInDim S2000000x64 ![0, 1] hb2 (broadcastInDim S2000000x1 ![0] hb1 w) i) (x i)
  have hl : shapeCast S2000000x1 w hn (rowOf i) = w (rowIx i) :=
    shapeCast_apply w hn (rowOf i) (rowIx i) (by
      rw [Shape.rowMajor_val_one, Shape.rowMajor_val_two]
      show (i 0).val = (i 0).val * 1 + 0
      omega)
  have hr : broadcastInDim S2000000x64 ![0, 1] hb2 (broadcastInDim S2000000x1 ![0] hb1 w) i = w (rowIx i) := by
    rw [broadcastInDim_apply ![0, 1] hb2 _ i (rowOf i) (fun a => match a with
      | ⟨0, _⟩ => by show (i 0).val = if (2000000 : Nat) = 1 then 0 else (i 0).val; rw [if_neg (by decide)]
      | ⟨1, _⟩ => by show 0 = if (1 : Nat) = 1 then 0 else (i 1).val; rw [if_pos rfl])]
    exact broadcastInDim_apply ![0] hb1 w (rowOf i) (rowIx i) (fun a => match a with
      | ⟨0, _⟩ => by show (i 0).val = if (2000000 : Nat) = 1 then 0 else (i 0).val; rw [if_neg (by decide)])
  rw [hl, hr]

end Cert.KernelIdeal.Tiles

end
-- ==== Proof.Stages.lean ====
/-
  The kernel's host operations, one stretch at a time, read in the reference's own vocabulary.

  Between the tiled regions the kernel's @main applies the very operations the reference applies: it builds the two
  directed edge lists (`src`, `dst`), counts degrees by a scatter-add of ones, takes the inverse square roots (zero where
  the degree is zero), multiplies the two gathered factors into the edge weights, and then, per layer, gathers the node
  rows at `src`, scatter-adds the weighted messages at `dst`, and at the end divides by 4 and keeps the first 100000
  rows. Each lemma below says: if the buffers a stretch READS hold the reference's values of those stages (functions of
  the four arguments `a0 … a3`), then the buffer the stretch WRITES holds the reference's value of the next stage. The
  entry contents `X` are arbitrary, so a lemma never looks at how the earlier values were produced, and no value is ever
  written out: the two sides are the same operation applied to the same named operands.

  Two kinds of step are not the reference's: the weights enter a multiply region as the COLUMN `[n] → [n, 1]` reshaped from
  the weight vector (`column…`: stated as that reshape of the reference's weight vector), and the regions themselves
  (Proof/Tiles.lean). The `keep…` lemmas say that a stretch leaves alone a buffer it does not write.
-/
import proofs.«168864_j50646254355232_1_alg».proof.Proof.RefRead
import proofs.«168864_j50646254355232_1_alg».proof.Proof.Gen.KernelIdeal.Launch
import Idealize.ShloMosaic.Lib.StableHlo.Run

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))
variable (a0 a1 : (⟨S1000000, .i32⟩ : BufTy).Contents (Elt F))
variable (a2 : (⟨S100000x64, .f32⟩ : BufTy).Contents (Elt F)) (a3 : (⟨S50000x64, .f32⟩ : BufTy).Contents (Elt F))

/-- Closes `after ops X b = X b` for a literal stretch none of whose operations writes the buffer `b`. -/
macro "unwritten" : tactic => `(tactic|
  (refine StableHlo.after_of_forall_not_mem _ _ (List.forall_iff_forall_mem.mp ?_)
   simp only [hostOps0, hostOps0_1, hostOps0_2, hostOps1, hostOps2, hostOps3, hostOps4, hostOps5, hostOps6, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- After the one-pass reading of a stretch: what is still read THROUGH later operations inside a concatenation's pieces
    (a buffer none of them writes) is what was there before them. -/
macro "pieces_unwritten" : tactic => `(tactic|
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)))

/-! ## The first stretch: the two edge lists and the degrees -/

/-- The sources of the directed edges. -/
theorem first_v2 (h0 : X (Proc.devRef .tc main_arg0) = a0)
    (h1 : X (Proc.devRef .tc main_arg1) = a1) :
    after hostOps0 X (Proc.devRef .tc main_v2) = Cert.ReferenceIdeal.ReadP.val_main_v2 (F := F) a0 a1 := by
  after_results
  rw [h0, h1]
  rfl

/-- The destinations of the directed edges. -/
theorem first_v5 (h0 : X (Proc.devRef .tc main_arg0) = a0)
    (h1 : X (Proc.devRef .tc main_arg1) = a1) :
    after hostOps0 X (Proc.devRef .tc main_v5) = Cert.ReferenceIdeal.ReadP.val_main_v5 (F := F) a0 a1 := by
  after_results
  rw [h0, h1]
  rfl

/-- Where the degree is positive. -/
theorem first_v11 (h0 : X (Proc.devRef .tc main_arg0) = a0)
    (h1 : X (Proc.devRef .tc main_arg1) = a1) :
    after hostOps0 X (Proc.devRef .tc main_v11) = Cert.ReferenceIdeal.ReadP.val_main_v11 (F := F) a0 a1 := by
  after_results
  rw [h0, h1]
  rfl

/-- The inverse square root of the degree raised to at least one. -/
theorem first_v14 (h0 : X (Proc.devRef .tc main_arg0) = a0)
    (h1 : X (Proc.devRef .tc main_arg1) = a1) :
    after hostOps0 X (Proc.devRef .tc main_v14) = Cert.ReferenceIdeal.ReadP.val_main_v14 (F := F) a0 a1 := by
  after_results
  rw [h0, h1]
  rfl

/-- The zero that replaces it where the degree is zero. -/
theorem first_cst4 :
    after hostOps0 X (Proc.devRef .tc main_cst_4) = Cert.ReferenceIdeal.ReadP.val_main_cst_4 (F := F) := by
  after_results
  rfl

/-! ## The second stretch: the normalising factor of every node -/

/-- The inverse square root of the degree, zero where the degree is zero. -/
theorem where_v15 (h11 : X (Proc.devRef .tc main_v11) = Cert.ReferenceIdeal.ReadP.val_main_v11 (F := F) a0 a1)
    (h14 : X (Proc.devRef .tc main_v14) = Cert.ReferenceIdeal.ReadP.val_main_v14 (F := F) a0 a1)
    (h4 : X (Proc.devRef .tc main_cst_4) = Cert.ReferenceIdeal.ReadP.val_main_cst_4 (F := F)) :
    after hostOps0_1 X (Proc.devRef .tc main_v15) = Cert.ReferenceIdeal.ReadP.val_main_v15 (F := F) a0 a1 := by
  after_results
  rw [h11, h14, h4]
  rfl

/-! ## The third stretch: the edge weights, the node table, and the first gather -/

/-- The weight of every directed edge: the product of its two endpoints' factors. -/
theorem third_v30 (h2 : X (Proc.devRef .tc main_v2) = Cert.ReferenceIdeal.ReadP.val_main_v2 (F := F) a0 a1)
    (h5 : X (Proc.devRef .tc main_v5) = Cert.ReferenceIdeal.ReadP.val_main_v5 (F := F) a0 a1)
    (h15 : X (Proc.devRef .tc main_v15) = Cert.ReferenceIdeal.ReadP.val_main_v15 (F := F) a0 a1) :
    after hostOps0_2 X (Proc.devRef .tc main_v30) = Cert.ReferenceIdeal.ReadP.val_main_v30 (F := F) a0 a1 := by
  after_results_simp
  rw [h2, h5, h15]
  rfl

/-- The node table: the users' rows, then the items' rows. -/
theorem third_v31 (h2' : X (Proc.devRef .tc main_arg2) = a2)
    (h3' : X (Proc.devRef .tc main_arg3) = a3) :
    after hostOps0_2 X (Proc.devRef .tc main_v31) = Cert.ReferenceIdeal.ReadP.val_main_v31 (F := F) a2 a3 := by
  after_results
  rw [h2', h3']
  rfl

/-- The node table's rows at the edges' sources. -/
theorem third_v38 (h2 : X (Proc.devRef .tc main_v2) = Cert.ReferenceIdeal.ReadP.val_main_v2 (F := F) a0 a1)
    (h2' : X (Proc.devRef .tc main_arg2) = a2)
    (h3' : X (Proc.devRef .tc main_arg3) = a3) :
    after hostOps0_2 X (Proc.devRef .tc main_v38) = Cert.ReferenceIdeal.ReadP.val_main_v39 (F := F) a0 a1 a2 a3 := by
  after_results_simp
  pieces_unwritten
  rw [h2, h2', h3']
  rfl

/-- The weights as a column, for the first multiply region. -/
theorem column0 (h2 : X (Proc.devRef .tc main_v2) = Cert.ReferenceIdeal.ReadP.val_main_v2 (F := F) a0 a1)
    (h5 : X (Proc.devRef .tc main_v5) = Cert.ReferenceIdeal.ReadP.val_main_v5 (F := F) a0 a1)
    (h15 : X (Proc.devRef .tc main_v15) = Cert.ReferenceIdeal.ReadP.val_main_v15 (F := F) a0 a1) :
    after hostOps0_2 X (Proc.devRef .tc main_v39) = (fun i => shapeCast S2000000x1 (Cert.ReferenceIdeal.ReadP.val_main_v30 (F := F) a0 a1) shapeCasts_S2000000_S2000000x1 i) := by
  after_results_simp
  rw [h2, h5, h15]
  rfl

/-! ## The stretches between the regions -/

/-- Layer 1: the weighted messages added up at the edges' destinations. -/
theorem scatter1 (h5 : X (Proc.devRef .tc main_v5) = Cert.ReferenceIdeal.ReadP.val_main_v5 (F := F) a0 a1)
    (h40 : X (Proc.devRef .tc main_v40) = Cert.ReferenceIdeal.ReadP.val_main_v41 (F := F) a0 a1 a2 a3) :
    after hostOps1 X (Proc.devRef .tc main_v43) = Cert.ReferenceIdeal.ReadP.val_main_v44 (F := F) a0 a1 a2 a3 := by
  after_results
  rw [h5, h40]
  rfl

/-- Layer 2: the new rows at the edges' sources. -/
theorem gather2 (h2 : X (Proc.devRef .tc main_v2) = Cert.ReferenceIdeal.ReadP.val_main_v2 (F := F) a0 a1)
    (h43 : X (Proc.devRef .tc main_v43) = Cert.ReferenceIdeal.ReadP.val_main_v44 (F := F) a0 a1 a2 a3) :
    after hostOps2 X (Proc.devRef .tc main_v51) = Cert.ReferenceIdeal.ReadP.val_main_v53 (F := F) a0 a1 a2 a3 := by
  after_results
  rw [h2, h43]
  rfl

/-- The weights as a column, for the second multiply region. -/
theorem column2 (h30 : X (Proc.devRef .tc main_v30) = Cert.ReferenceIdeal.ReadP.val_main_v30 (F := F) a0 a1) :
    after hostOps2 X (Proc.devRef .tc main_v52) = (fun i => shapeCast S2000000x1 (Cert.ReferenceIdeal.ReadP.val_main_v30 (F := F) a0 a1) shapeCasts_S2000000_S2000000x1 i) := by
  after_results
  rw [h30]
  rfl

/-- Layer 2: the weighted messages added up at the edges' destinations. -/
theorem scatter3 (h5 : X (Proc.devRef .tc main_v5) = Cert.ReferenceIdeal.ReadP.val_main_v5 (F := F) a0 a1)
    (h53 : X (Proc.devRef .tc main_v53) = Cert.ReferenceIdeal.ReadP.val_main_v55 (F := F) a0 a1 a2 a3) :
    after hostOps3 X (Proc.devRef .tc main_v56) = Cert.ReferenceIdeal.ReadP.val_main_v58 (F := F) a0 a1 a2 a3 := by
  after_results
  rw [h5, h53]
  rfl

/-- Layer 3: the new rows at the edges' sources. -/
theorem gather4 (h2 : X (Proc.devRef .tc main_v2) = Cert.ReferenceIdeal.ReadP.val_main_v2 (F := F) a0 a1)
    (h56 : X (Proc.devRef .tc main_v56) = Cert.ReferenceIdeal.ReadP.val_main_v58 (F := F) a0 a1 a2 a3) :
    after hostOps4 X (Proc.devRef .tc main_v64) = Cert.ReferenceIdeal.ReadP.val_main_v67 (F := F) a0 a1 a2 a3 := by
  after_results
  rw [h2, h56]
  rfl

/-- The weights as a column, for the third multiply region. -/
theorem column4 (h30 : X (Proc.devRef .tc main_v30) = Cert.ReferenceIdeal.ReadP.val_main_v30 (F := F) a0 a1) :
    after hostOps4 X (Proc.devRef .tc main_v65) = (fun i => shapeCast S2000000x1 (Cert.ReferenceIdeal.ReadP.val_main_v30 (F := F) a0 a1) shapeCasts_S2000000_S2000000x1 i) := by
  after_results
  rw [h30]
  rfl

/-- Layer 3: the weighted messages added up at the edges' destinations. -/
theorem scatter5 (h5 : X (Proc.devRef .tc main_v5) = Cert.ReferenceIdeal.ReadP.val_main_v5 (F := F) a0 a1)
    (h66 : X (Proc.devRef .tc main_v66) = Cert.ReferenceIdeal.ReadP.val_main_v69 (F := F) a0 a1 a2 a3) :
    after hostOps5 X (Proc.devRef .tc main_v69) = Cert.ReferenceIdeal.ReadP.val_main_v72 (F := F) a0 a1 a2 a3 := by
  after_results
  rw [h5, h66]
  rfl

/-- The mean over the four snapshots, and the users' rows of it. -/
theorem tail6 (h70 : X (Proc.devRef .tc main_v70) = Cert.ReferenceIdeal.ReadP.val_main_v73 (F := F) a0 a1 a2 a3) :
    after hostOps6 X (Proc.devRef .tc main_v73) = Cert.ReferenceIdeal.ReadP.val_main_v76 (F := F) a0 a1 a2 a3 := by
  after_results
  rw [h70]
  rfl

/-! ## What each stretch leaves alone -/

theorem keep0_arg2 : after hostOps0 X (Proc.devRef .tc main_arg2) = X (Proc.devRef .tc main_arg2) := by unwritten
theorem keep0_arg3 : after hostOps0 X (Proc.devRef .tc main_arg3) = X (Proc.devRef .tc main_arg3) := by unwritten
theorem keep0_1_v2 : after hostOps0_1 X (Proc.devRef .tc main_v2) = X (Proc.devRef .tc main_v2) := by unwritten
theorem keep0_1_v5 : after hostOps0_1 X (Proc.devRef .tc main_v5) = X (Proc.devRef .tc main_v5) := by unwritten
theorem keep0_1_arg2 : after hostOps0_1 X (Proc.devRef .tc main_arg2) = X (Proc.devRef .tc main_arg2) := by unwritten
theorem keep0_1_arg3 : after hostOps0_1 X (Proc.devRef .tc main_arg3) = X (Proc.devRef .tc main_arg3) := by unwritten
theorem keep0_2_v2 : after hostOps0_2 X (Proc.devRef .tc main_v2) = X (Proc.devRef .tc main_v2) := by unwritten
theorem keep0_2_v5 : after hostOps0_2 X (Proc.devRef .tc main_v5) = X (Proc.devRef .tc main_v5) := by unwritten
theorem keep1_v2 : after hostOps1 X (Proc.devRef .tc main_v2) = X (Proc.devRef .tc main_v2) := by unwritten
theorem keep1_v5 : after hostOps1 X (Proc.devRef .tc main_v5) = X (Proc.devRef .tc main_v5) := by unwritten
theorem keep1_v30 : after hostOps1 X (Proc.devRef .tc main_v30) = X (Proc.devRef .tc main_v30) := by unwritten
theorem keep1_v31 : after hostOps1 X (Proc.devRef .tc main_v31) = X (Proc.devRef .tc main_v31) := by unwritten
theorem keep2_v2 : after hostOps2 X (Proc.devRef .tc main_v2) = X (Proc.devRef .tc main_v2) := by unwritten
theorem keep2_v5 : after hostOps2 X (Proc.devRef .tc main_v5) = X (Proc.devRef .tc main_v5) := by unwritten
theorem keep2_v30 : after hostOps2 X (Proc.devRef .tc main_v30) = X (Proc.devRef .tc main_v30) := by unwritten
theorem keep2_v44 : after hostOps2 X (Proc.devRef .tc main_v44) = X (Proc.devRef .tc main_v44) := by unwritten
theorem keep3_v2 : after hostOps3 X (Proc.devRef .tc main_v2) = X (Proc.devRef .tc main_v2) := by unwritten
theorem keep3_v5 : after hostOps3 X (Proc.devRef .tc main_v5) = X (Proc.devRef .tc main_v5) := by unwritten
theorem keep3_v30 : after hostOps3 X (Proc.devRef .tc main_v30) = X (Proc.devRef .tc main_v30) := by unwritten
theorem keep3_v44 : after hostOps3 X (Proc.devRef .tc main_v44) = X (Proc.devRef .tc main_v44) := by unwritten
theorem keep4_v5 : after hostOps4 X (Proc.devRef .tc main_v5) = X (Proc.devRef .tc main_v5) := by unwritten
theorem keep4_v57 : after hostOps4 X (Proc.devRef .tc main_v57) = X (Proc.devRef .tc main_v57) := by unwritten
theorem keep5_v57 : after hostOps5 X (Proc.devRef .tc main_v57) = X (Proc.devRef .tc main_v57) := by unwritten

end Cert.KernelIdeal.Stages

end
-- ==== Proof.Chain.lean ====
/-
  The result buffer at the end of the kernel's run is the reference's result stage of the four launch arguments.

  Walk the boundaries of @main's fifteen segments in order. At each boundary every buffer that is still to be read holds
  a stage of the reference's own computation, as a function of the launch arguments: the edge lists, the edge weights,
  the current node table, the running sum of the snapshots. A host stretch carries this from its entry to its exit
  because it applies the reference's operations to those buffers (Proof/Stages.lean). A multiply region carries it because
  it leaves the gathered rows scaled by the weights' column, and scaling by the reshaped weight vector IS the reference's
  product with the weights broadcast to a column and then along the rows; an add region because it leaves the entrywise
  sum, which is the reference's `add` (Proof/Tiles.lean). A buffer a segment does not write keeps its value. After the last
  stretch — divide by 4, keep the first 100000 rows — the result buffer holds the reference's result stage. No algebraic
  law is used: the two programs are the same composition of operations, the kernel's merely tiled, so the statement
  holds at every float instance.
-/
import proofs.«168864_j50646254355232_1_alg».proof.Proof.Tiles
import proofs.«168864_j50646254355232_1_alg».proof.Proof.Stages
import proofs.«168864_j50646254355232_1_alg».proof.Proof.Gen.KernelIdeal.Frame

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

-- one long walk: forty-odd small steps in one declaration
set_option maxHeartbeats 1000000 in
/-- The last boundary's contents at the result buffer: the reference's result stage of the launch arguments. -/
theorem result (c : Dev nD) :
    W15 m ρ c (Proc.devRef .tc main_v73) = Cert.ReferenceIdeal.ReadP.val_main_v76 (F := F) (m ((c.tc : Thread nD τ).loc main_arg0)) (m ((c.tc : Thread nD τ).loc main_arg1)) (m ((c.tc : Thread nD τ).loc main_arg2)) (m ((c.tc : Thread nD τ).loc main_arg3)) := by
  have g0 : W0 m ρ c (Proc.devRef .tc main_arg0) = (m ((c.tc : Thread nD τ).loc main_arg0)) := rfl
  have g1 : W0 m ρ c (Proc.devRef .tc main_arg1) = (m ((c.tc : Thread nD τ).loc main_arg1)) := rfl
  have g2 : W0 m ρ c (Proc.devRef .tc main_arg2) = (m ((c.tc : Thread nD τ).loc main_arg2)) := rfl
  have g3 : W0 m ρ c (Proc.devRef .tc main_arg3) = (m ((c.tc : Thread nD τ).loc main_arg3)) := rfl
  -- after the first stretch
  have b1_v2 : W1 m ρ c (Proc.devRef .tc main_v2) = Cert.ReferenceIdeal.ReadP.val_main_v2 (F := F) (m ((c.tc : Thread nD τ).loc main_arg0)) (m ((c.tc : Thread nD τ).loc main_arg1)) :=
    Stages.first_v2 (W0 m ρ c) _ _ g0 g1
  have b1_v5 : W1 m ρ c (Proc.devRef .tc main_v5) = Cert.ReferenceIdeal.ReadP.val_main_v5 (F := F) (m ((c.tc : Thread nD τ).loc main_arg0)) (m ((c.tc : Thread nD τ).loc main_arg1)) :=
    Stages.first_v5 (W0 m ρ c) _ _ g0 g1
  have b1_v11 : W1 m ρ c (Proc.devRef .tc main_v11) = Cert.ReferenceIdeal.ReadP.val_main_v11 (F := F) (m ((c.tc : Thread nD τ).loc main_arg0)) (m ((c.tc : Thread nD τ).loc main_arg1)) :=
    Stages.first_v11 (W0 m ρ c) _ _ g0 g1
  have b1_v14 : W1 m ρ c (Proc.devRef .tc main_v14) = Cert.ReferenceIdeal.ReadP.val_main_v14 (F := F) (m ((c.tc : Thread nD τ).loc main_arg0)) (m ((c.tc : Thread nD τ).loc main_arg1)) :=
    Stages.first_v14 (W0 m ρ c) _ _ g0 g1
  have b1_cst_4 : W1 m ρ c (Proc.devRef .tc main_cst_4) = Cert.ReferenceIdeal.ReadP.val_main_cst_4 (F := F) :=
    Stages.first_cst4 (W0 m ρ c)
  have b1_arg2 : W1 m ρ c (Proc.devRef .tc main_arg2) = (m ((c.tc : Thread nD τ).loc main_arg2)) :=
    (Stages.keep0_arg2 (W0 m ρ c)).trans g2
  have b1_arg3 : W1 m ρ c (Proc.devRef .tc main_arg3) = (m ((c.tc : Thread nD τ).loc main_arg3)) :=
    (Stages.keep0_arg3 (W0 m ρ c)).trans g3
  -- after the second stretch
  have b2_v15 : W2 m ρ c (Proc.devRef .tc main_v15) = Cert.ReferenceIdeal.ReadP.val_main_v15 (F := F) (m ((c.tc : Thread nD τ).loc main_arg0)) (m ((c.tc : Thread nD τ).loc main_arg1)) :=
    Stages.where_v15 (W1 m ρ c) _ _ b1_v11 b1_v14 b1_cst_4
  have b2_v2 : W2 m ρ c (Proc.devRef .tc main_v2) = Cert.ReferenceIdeal.ReadP.val_main_v2 (F := F) (m ((c.tc : Thread nD τ).loc main_arg0)) (m ((c.tc : Thread nD τ).loc main_arg1)) :=
    (Stages.keep0_1_v2 (W1 m ρ c)).trans b1_v2
  have b2_v5 : W2 m ρ c (Proc.devRef .tc main_v5) = Cert.ReferenceIdeal.ReadP.val_main_v5 (F := F) (m ((c.tc : Thread nD τ).loc main_arg0)) (m ((c.tc : Thread nD τ).loc main_arg1)) :=
    (Stages.keep0_1_v5 (W1 m ρ c)).trans b1_v5
  have b2_arg2 : W2 m ρ c (Proc.devRef .tc main_arg2) = (m ((c.tc : Thread nD τ).loc main_arg2)) :=
    (Stages.keep0_1_arg2 (W1 m ρ c)).trans b1_arg2
  have b2_arg3 : W2 m ρ c (Proc.devRef .tc main_arg3) = (m ((c.tc : Thread nD τ).loc main_arg3)) :=
    (Stages.keep0_1_arg3 (W1 m ρ c)).trans b1_arg3
  -- after the third stretch: region 0's entry
  have b3_v30 : W3 m ρ c (Proc.devRef .tc main_v30) = Cert.ReferenceIdeal.ReadP.val_main_v30 (F := F) (m ((c.tc : Thread nD τ).loc main_arg0)) (m ((c.tc : Thread nD τ).loc main_arg1)) :=
    Stages.third_v30 (W2 m ρ c) _ _ b2_v2 b2_v5 b2_v15
  have b3_v31 : W3 m ρ c (Proc.devRef .tc main_v31) = Cert.ReferenceIdeal.ReadP.val_main_v31 (F := F) (m ((c.tc : Thread nD τ).loc main_arg2)) (m ((c.tc : Thread nD τ).loc main_arg3)) :=
    Stages.third_v31 (W2 m ρ c) _ _ b2_arg2 b2_arg3
  have b3_v38 : W3 m ρ c (Proc.devRef .tc main_v38) = Cert.ReferenceIdeal.ReadP.val_main_v39 (F := F) (m ((c.tc : Thread nD τ).loc main_arg0)) (m ((c.tc : Thread nD τ).loc main_arg1)) (m ((c.tc : Thread nD τ).loc main_arg2)) (m ((c.tc : Thread nD τ).loc main_arg3)) :=
    Stages.third_v38 (W2 m ρ c) _ _ _ _ b2_v2 b2_arg2 b2_arg3
  have b3_v39 : W3 m ρ c (Proc.devRef .tc main_v39) = (fun i => shapeCast S2000000x1 (Cert.ReferenceIdeal.ReadP.val_main_v30 (F := F) (m ((c.tc : Thread nD τ).loc main_arg0)) (m ((c.tc : Thread nD τ).loc main_arg1))) shapeCasts_S2000000_S2000000x1 i) :=
    Stages.column0 (W2 m ρ c) _ _ b2_v2 b2_v5 b2_v15
  have b3_v2 : W3 m ρ c (Proc.devRef .tc main_v2) = Cert.ReferenceIdeal.ReadP.val_main_v2 (F := F) (m ((c.tc : Thread nD τ).loc main_arg0)) (m ((c.tc : Thread nD τ).loc main_arg1)) :=
    (Stages.keep0_2_v2 (W2 m ρ c)).trans b2_v2
  have b3_v5 : W3 m ρ c (Proc.devRef .tc main_v5) = Cert.ReferenceIdeal.ReadP.val_main_v5 (F := F) (m ((c.tc : Thread nD τ).loc main_arg0)) (m ((c.tc : Thread nD τ).loc main_arg1)) :=
    (Stages.keep0_2_v5 (W2 m ρ c)).trans b2_v5
  -- region 0
  have b4_v40 : W4 m ρ c (Proc.devRef .tc main_v40) = Cert.ReferenceIdeal.ReadP.val_main_v41 (F := F) (m ((c.tc : Thread nD τ).loc main_arg0)) (m ((c.tc : Thread nD τ).loc main_arg1)) (m ((c.tc : Thread nD τ).loc main_arg2)) (m ((c.tc : Thread nD τ).loc main_arg3)) :=
    ((W4_arr m ρ c 2).trans (Tiles.array0 (V3 m ρ) c)).trans (by
      show Tiles.scaleRows (W3 m ρ c (Proc.devRef .tc main_v39)) (W3 m ρ c (Proc.devRef .tc main_v38)) = _
      rw [b3_v39, b3_v38]
      exact Tiles.scaleRows_reshape _ _ _ _ _)
  have b4_v2 : W4 m ρ c (Proc.devRef .tc main_v2) = Cert.ReferenceIdeal.ReadP.val_main_v2 (F := F) (m ((c.tc : Thread nD τ).loc main_arg0)) (m ((c.tc : Thread nD τ).loc main_arg1)) :=
    (W4_of_ne m ρ c main_v2 (by decide)).trans b3_v2
  have b4_v5 : W4 m ρ c (Proc.devRef .tc main_v5) = Cert.ReferenceIdeal.ReadP.val_main_v5 (F := F) (m ((c.tc : Thread nD τ).loc main_arg0)) (m ((c.tc : Thread nD τ).loc main_arg1)) :=
    (W4_of_ne m ρ c main_v5 (by decide)).trans b3_v5
  have b4_v30 : W4 m ρ c (Proc.devRef .tc main_v30) = Cert.ReferenceIdeal.ReadP.val_main_v30 (F := F) (m ((c.tc : Thread nD τ).loc main_arg0)) (m ((c.tc : Thread nD τ).loc main_arg1)) :=
    (W4_of_ne m ρ c main_v30 (by decide)).trans b3_v30
  have b4_v31 : W4 m ρ c (Proc.devRef .tc main_v31) = Cert.ReferenceIdeal.ReadP.val_main_v31 (F := F) (m ((c.tc : Thread nD τ).loc main_arg2)) (m ((c.tc : Thread nD τ).loc main_arg3)) :=
    (W4_of_ne m ρ c main_v31 (by decide)).trans b3_v31
  -- host stretch 1
  have b5_v43 : W5 m ρ c (Proc.devRef .tc main_v43) = Cert.ReferenceIdeal.ReadP.val_main_v44 (F := F) (m ((c.tc : Thread nD τ).loc main_arg0)) (m ((c.tc : Thread nD τ).loc main_arg1)) (m ((c.tc : Thread nD τ).loc main_arg2)) (m ((c.tc : Thread nD τ).loc main_arg3)) :=
    Stages.scatter1 (W4 m ρ c) _ _ _ _ b4_v5 b4_v40
  have b5_v2 : W5 m ρ c (Proc.devRef .tc main_v2) = Cert.ReferenceIdeal.ReadP.val_main_v2 (F := F) (m ((c.tc : Thread nD τ).loc main_arg0)) (m ((c.tc : Thread nD τ).loc main_arg1)) :=
    (Stages.keep1_v2 (W4 m ρ c)).trans b4_v2
  have b5_v5 : W5 m ρ c (Proc.devRef .tc main_v5) = Cert.ReferenceIdeal.ReadP.val_main_v5 (F := F) (m ((c.tc : Thread nD τ).loc main_arg0)) (m ((c.tc : Thread nD τ).loc main_arg1)) :=
    (Stages.keep1_v5 (W4 m ρ c)).trans b4_v5
  have b5_v30 : W5 m ρ c (Proc.devRef .tc main_v30) = Cert.ReferenceIdeal.ReadP.val_main_v30 (F := F) (m ((c.tc : Thread nD τ).loc main_arg0)) (m ((c.tc : Thread nD τ).loc main_arg1)) :=
    (Stages.keep1_v30 (W4 m ρ c)).trans b4_v30
  have b5_v31 : W5 m ρ c (Proc.devRef .tc main_v31) = Cert.ReferenceIdeal.ReadP.val_main_v31 (F := F) (m ((c.tc : Thread nD τ).loc main_arg2)) (m ((c.tc : Thread nD τ).loc main_arg3)) :=
    (Stages.keep1_v31 (W4 m ρ c)).trans b4_v31
  -- region 1
  have b6_v44 : W6 m ρ c (Proc.devRef .tc main_v44) = Cert.ReferenceIdeal.ReadP.val_main_v45 (F := F) (m ((c.tc : Thread nD τ).loc main_arg0)) (m ((c.tc : Thread nD τ).loc main_arg1)) (m ((c.tc : Thread nD τ).loc main_arg2)) (m ((c.tc : Thread nD τ).loc main_arg3)) :=
    ((W6_arr m ρ c 2).trans (Tiles.array1 (V5 m ρ) c)).trans (by
      show addf (W5 m ρ c (Proc.devRef .tc main_v31)) (W5 m ρ c (Proc.devRef .tc main_v43)) = _
      rw [b5_v31, b5_v43]
      rfl)
  have b6_v2 : W6 m ρ c (Proc.devRef .tc main_v2) = Cert.ReferenceIdeal.ReadP.val_main_v2 (F := F) (m ((c.tc : Thread nD τ).loc main_arg0)) (m ((c.tc : Thread nD τ).loc main_arg1)) :=
    (W6_of_ne m ρ c main_v2 (by decide)).trans b5_v2
  have b6_v5 : W6 m ρ c (Proc.devRef .tc main_v5) = Cert.ReferenceIdeal.ReadP.val_main_v5 (F := F) (m ((c.tc : Thread nD τ).loc main_arg0)) (m ((c.tc : Thread nD τ).loc main_arg1)) :=
    (W6_of_ne m ρ c main_v5 (by decide)).trans b5_v5
  have b6_v30 : W6 m ρ c (Proc.devRef .tc main_v30) = Cert.ReferenceIdeal.ReadP.val_main_v30 (F := F) (m ((c.tc : Thread nD τ).loc main_arg0)) (m ((c.tc : Thread nD τ).loc main_arg1)) :=
    (W6_of_ne m ρ c main_v30 (by decide)).trans b5_v30
  have b6_v43 : W6 m ρ c (Proc.devRef .tc main_v43) = Cert.ReferenceIdeal.ReadP.val_main_v44 (F := F) (m ((c.tc : Thread nD τ).loc main_arg0)) (m ((c.tc : Thread nD τ).loc main_arg1)) (m ((c.tc : Thread nD τ).loc main_arg2)) (m ((c.tc : Thread nD τ).loc main_arg3)) :=
    ((W6_arr m ρ c 1).trans (((dat1 (V5 m ρ) c).arrAt_in 1 rfl cfg1.N).trans (A_eq1 (V5 m ρ) c 1))).trans b5_v43
  -- host stretch 2
  have b7_v51 : W7 m ρ c (Proc.devRef .tc main_v51) = Cert.ReferenceIdeal.ReadP.val_main_v53 (F := F) (m ((c.tc : Thread nD τ).loc main_arg0)) (m ((c.tc : Thread nD τ).loc main_arg1)) (m ((c.tc : Thread nD τ).loc main_arg2)) (m ((c.tc : Thread nD τ).loc main_arg3)) :=
    Stages.gather2 (W6 m ρ c) _ _ _ _ b6_v2 b6_v43
  have b7_v52 : W7 m ρ c (Proc.devRef .tc main_v52) = (fun i => shapeCast S2000000x1 (Cert.ReferenceIdeal.ReadP.val_main_v30 (F := F) (m ((c.tc : Thread nD τ).loc main_arg0)) (m ((c.tc : Thread nD τ).loc main_arg1))) shapeCasts_S2000000_S2000000x1 i) :=
    Stages.column2 (W6 m ρ c) _ _ b6_v30
  have b7_v2 : W7 m ρ c (Proc.devRef .tc main_v2) = Cert.ReferenceIdeal.ReadP.val_main_v2 (F := F) (m ((c.tc : Thread nD τ).loc main_arg0)) (m ((c.tc : Thread nD τ).loc main_arg1)) :=
    (Stages.keep2_v2 (W6 m ρ c)).trans b6_v2
  have b7_v5 : W7 m ρ c (Proc.devRef .tc main_v5) = Cert.ReferenceIdeal.ReadP.val_main_v5 (F := F) (m ((c.tc : Thread nD τ).loc main_arg0)) (m ((c.tc : Thread nD τ).loc main_arg1)) :=
    (Stages.keep2_v5 (W6 m ρ c)).trans b6_v5
  have b7_v30 : W7 m ρ c (Proc.devRef .tc main_v30) = Cert.ReferenceIdeal.ReadP.val_main_v30 (F := F) (m ((c.tc : Thread nD τ).loc main_arg0)) (m ((c.tc : Thread nD τ).loc main_arg1)) :=
    (Stages.keep2_v30 (W6 m ρ c)).trans b6_v30
  have b7_v44 : W7 m ρ c (Proc.devRef .tc main_v44) = Cert.ReferenceIdeal.ReadP.val_main_v45 (F := F) (m ((c.tc : Thread nD τ).loc main_arg0)) (m ((c.tc : Thread nD τ).loc main_arg1)) (m ((c.tc : Thread nD τ).loc main_arg2)) (m ((c.tc : Thread nD τ).loc main_arg3)) :=
    (Stages.keep2_v44 (W6 m ρ c)).trans b6_v44
  -- region 2
  have b8_v53 : W8 m ρ c (Proc.devRef .tc main_v53) = Cert.ReferenceIdeal.ReadP.val_main_v55 (F := F) (m ((c.tc : Thread nD τ).loc main_arg0)) (m ((c.tc : Thread nD τ).loc main_arg1)) (m ((c.tc : Thread nD τ).loc main_arg2)) (m ((c.tc : Thread nD τ).loc main_arg3)) :=
    ((W8_arr m ρ c 2).trans (Tiles.array2 (V7 m ρ) c)).trans (by
      show Tiles.scaleRows (W7 m ρ c (Proc.devRef .tc main_v52)) (W7 m ρ c (Proc.devRef .tc main_v51)) = _
      rw [b7_v52, b7_v51]
      exact Tiles.scaleRows_reshape _ _ _ _ _)
  have b8_v2 : W8 m ρ c (Proc.devRef .tc main_v2) = Cert.ReferenceIdeal.ReadP.val_main_v2 (F := F) (m ((c.tc : Thread nD τ).loc main_arg0)) (m ((c.tc : Thread nD τ).loc main_arg1)) :=
    (W8_of_ne m ρ c main_v2 (by decide)).trans b7_v2
  have b8_v5 : W8 m ρ c (Proc.devRef .tc main_v5) = Cert.ReferenceIdeal.ReadP.val_main_v5 (F := F) (m ((c.tc : Thread nD τ).loc main_arg0)) (m ((c.tc : Thread nD τ).loc main_arg1)) :=
    (W8_of_ne m ρ c main_v5 (by decide)).trans b7_v5
  have b8_v30 : W8 m ρ c (Proc.devRef .tc main_v30) = Cert.ReferenceIdeal.ReadP.val_main_v30 (F := F) (m ((c.tc : Thread nD τ).loc main_arg0)) (m ((c.tc : Thread nD τ).loc main_arg1)) :=
    (W8_of_ne m ρ c main_v30 (by decide)).trans b7_v30
  have b8_v44 : W8 m ρ c (Proc.devRef .tc main_v44) = Cert.ReferenceIdeal.ReadP.val_main_v45 (F := F) (m ((c.tc : Thread nD τ).loc main_arg0)) (m ((c.tc : Thread nD τ).loc main_arg1)) (m ((c.tc : Thread nD τ).loc main_arg2)) (m ((c.tc : Thread nD τ).loc main_arg3)) :=
    (W8_of_ne m ρ c main_v44 (by decide)).trans b7_v44
  -- host stretch 3
  have b9_v56 : W9 m ρ c (Proc.devRef .tc main_v56) = Cert.ReferenceIdeal.ReadP.val_main_v58 (F := F) (m ((c.tc : Thread nD τ).loc main_arg0)) (m ((c.tc : Thread nD τ).loc main_arg1)) (m ((c.tc : Thread nD τ).loc main_arg2)) (m ((c.tc : Thread nD τ).loc main_arg3)) :=
    Stages.scatter3 (W8 m ρ c) _ _ _ _ b8_v5 b8_v53
  have b9_v2 : W9 m ρ c (Proc.devRef .tc main_v2) = Cert.ReferenceIdeal.ReadP.val_main_v2 (F := F) (m ((c.tc : Thread nD τ).loc main_arg0)) (m ((c.tc : Thread nD τ).loc main_arg1)) :=
    (Stages.keep3_v2 (W8 m ρ c)).trans b8_v2
  have b9_v5 : W9 m ρ c (Proc.devRef .tc main_v5) = Cert.ReferenceIdeal.ReadP.val_main_v5 (F := F) (m ((c.tc : Thread nD τ).loc main_arg0)) (m ((c.tc : Thread nD τ).loc main_arg1)) :=
    (Stages.keep3_v5 (W8 m ρ c)).trans b8_v5
  have b9_v30 : W9 m ρ c (Proc.devRef .tc main_v30) = Cert.ReferenceIdeal.ReadP.val_main_v30 (F := F) (m ((c.tc : Thread nD τ).loc main_arg0)) (m ((c.tc : Thread nD τ).loc main_arg1)) :=
    (Stages.keep3_v30 (W8 m ρ c)).trans b8_v30
  have b9_v44 : W9 m ρ c (Proc.devRef .tc main_v44) = Cert.ReferenceIdeal.ReadP.val_main_v45 (F := F) (m ((c.tc : Thread nD τ).loc main_arg0)) (m ((c.tc : Thread nD τ).loc main_arg1)) (m ((c.tc : Thread nD τ).loc main_arg2)) (m ((c.tc : Thread nD τ).loc main_arg3)) :=
    (Stages.keep3_v44 (W8 m ρ c)).trans b8_v44
  -- region 3
  have b10_v57 : W10 m ρ c (Proc.devRef .tc main_v57) = Cert.ReferenceIdeal.ReadP.val_main_v59 (F := F) (m ((c.tc : Thread nD τ).loc main_arg0)) (m ((c.tc : Thread nD τ).loc main_arg1)) (m ((c.tc : Thread nD τ).loc main_arg2)) (m ((c.tc : Thread nD τ).loc main_arg3)) :=
    ((W10_arr m ρ c 2).trans (Tiles.array3 (V9 m ρ) c)).trans (by
      show addf (W9 m ρ c (Proc.devRef .tc main_v44)) (W9 m ρ c (Proc.devRef .tc main_v56)) = _
      rw [b9_v44, b9_v56]
      rfl)
  have b10_v2 : W10 m ρ c (Proc.devRef .tc main_v2) = Cert.ReferenceIdeal.ReadP.val_main_v2 (F := F) (m ((c.tc : Thread nD τ).loc main_arg0)) (m ((c.tc : Thread nD τ).loc main_arg1)) :=
    (W10_of_ne m ρ c main_v2 (by decide)).trans b9_v2
  have b10_v5 : W10 m ρ c (Proc.devRef .tc main_v5) = Cert.ReferenceIdeal.ReadP.val_main_v5 (F := F) (m ((c.tc : Thread nD τ).loc main_arg0)) (m ((c.tc : Thread nD τ).loc main_arg1)) :=
    (W10_of_ne m ρ c main_v5 (by decide)).trans b9_v5
  have b10_v30 : W10 m ρ c (Proc.devRef .tc main_v30) = Cert.ReferenceIdeal.ReadP.val_main_v30 (F := F) (m ((c.tc : Thread nD τ).loc main_arg0)) (m ((c.tc : Thread nD τ).loc main_arg1)) :=
    (W10_of_ne m ρ c main_v30 (by decide)).trans b9_v30
  have b10_v56 : W10 m ρ c (Proc.devRef .tc main_v56) = Cert.ReferenceIdeal.ReadP.val_main_v58 (F := F) (m ((c.tc : Thread nD τ).loc main_arg0)) (m ((c.tc : Thread nD τ).loc main_arg1)) (m ((c.tc : Thread nD τ).loc main_arg2)) (m ((c.tc : Thread nD τ).loc main_arg3)) :=
    ((W10_arr m ρ c 1).trans (((dat3 (V9 m ρ) c).arrAt_in 1 rfl cfg3.N).trans (A_eq3 (V9 m ρ) c 1))).trans b9_v56
  -- host stretch 4
  have b11_v64 : W11 m ρ c (Proc.devRef .tc main_v64) = Cert.ReferenceIdeal.ReadP.val_main_v67 (F := F) (m ((c.tc : Thread nD τ).loc main_arg0)) (m ((c.tc : Thread nD τ).loc main_arg1)) (m ((c.tc : Thread nD τ).loc main_arg2)) (m ((c.tc : Thread nD τ).loc main_arg3)) :=
    Stages.gather4 (W10 m ρ c) _ _ _ _ b10_v2 b10_v56
  have b11_v65 : W11 m ρ c (Proc.devRef .tc main_v65) = (fun i => shapeCast S2000000x1 (Cert.ReferenceIdeal.ReadP.val_main_v30 (F := F) (m ((c.tc : Thread nD τ).loc main_arg0)) (m ((c.tc : Thread nD τ).loc main_arg1))) shapeCasts_S2000000_S2000000x1 i) :=
    Stages.column4 (W10 m ρ c) _ _ b10_v30
  have b11_v5 : W11 m ρ c (Proc.devRef .tc main_v5) = Cert.ReferenceIdeal.ReadP.val_main_v5 (F := F) (m ((c.tc : Thread nD τ).loc main_arg0)) (m ((c.tc : Thread nD τ).loc main_arg1)) :=
    (Stages.keep4_v5 (W10 m ρ c)).trans b10_v5
  have b11_v57 : W11 m ρ c (Proc.devRef .tc main_v57) = Cert.ReferenceIdeal.ReadP.val_main_v59 (F := F) (m ((c.tc : Thread nD τ).loc main_arg0)) (m ((c.tc : Thread nD τ).loc main_arg1)) (m ((c.tc : Thread nD τ).loc main_arg2)) (m ((c.tc : Thread nD τ).loc main_arg3)) :=
    (Stages.keep4_v57 (W10 m ρ c)).trans b10_v57
  -- region 4
  have b12_v66 : W12 m ρ c (Proc.devRef .tc main_v66) = Cert.ReferenceIdeal.ReadP.val_main_v69 (F := F) (m ((c.tc : Thread nD τ).loc main_arg0)) (m ((c.tc : Thread nD τ).loc main_arg1)) (m ((c.tc : Thread nD τ).loc main_arg2)) (m ((c.tc : Thread nD τ).loc main_arg3)) :=
    ((W12_arr m ρ c 2).trans (Tiles.array4 (V11 m ρ) c)).trans (by
      show Tiles.scaleRows (W11 m ρ c (Proc.devRef .tc main_v65)) (W11 m ρ c (Proc.devRef .tc main_v64)) = _
      rw [b11_v65, b11_v64]
      exact Tiles.scaleRows_reshape _ _ _ _ _)
  have b12_v5 : W12 m ρ c (Proc.devRef .tc main_v5) = Cert.ReferenceIdeal.ReadP.val_main_v5 (F := F) (m ((c.tc : Thread nD τ).loc main_arg0)) (m ((c.tc : Thread nD τ).loc main_arg1)) :=
    (W12_of_ne m ρ c main_v5 (by decide)).trans b11_v5
  have b12_v57 : W12 m ρ c (Proc.devRef .tc main_v57) = Cert.ReferenceIdeal.ReadP.val_main_v59 (F := F) (m ((c.tc : Thread nD τ).loc main_arg0)) (m ((c.tc : Thread nD τ).loc main_arg1)) (m ((c.tc : Thread nD τ).loc main_arg2)) (m ((c.tc : Thread nD τ).loc main_arg3)) :=
    (W12_of_ne m ρ c main_v57 (by decide)).trans b11_v57
  -- host stretch 5
  have b13_v69 : W13 m ρ c (Proc.devRef .tc main_v69) = Cert.ReferenceIdeal.ReadP.val_main_v72 (F := F) (m ((c.tc : Thread nD τ).loc main_arg0)) (m ((c.tc : Thread nD τ).loc main_arg1)) (m ((c.tc : Thread nD τ).loc main_arg2)) (m ((c.tc : Thread nD τ).loc main_arg3)) :=
    Stages.scatter5 (W12 m ρ c) _ _ _ _ b12_v5 b12_v66
  have b13_v57 : W13 m ρ c (Proc.devRef .tc main_v57) = Cert.ReferenceIdeal.ReadP.val_main_v59 (F := F) (m ((c.tc : Thread nD τ).loc main_arg0)) (m ((c.tc : Thread nD τ).loc main_arg1)) (m ((c.tc : Thread nD τ).loc main_arg2)) (m ((c.tc : Thread nD τ).loc main_arg3)) :=
    (Stages.keep5_v57 (W12 m ρ c)).trans b12_v57
  -- region 5
  have b14_v70 : W14 m ρ c (Proc.devRef .tc main_v70) = Cert.ReferenceIdeal.ReadP.val_main_v73 (F := F) (m ((c.tc : Thread nD τ).loc main_arg0)) (m ((c.tc : Thread nD τ).loc main_arg1)) (m ((c.tc : Thread nD τ).loc main_arg2)) (m ((c.tc : Thread nD τ).loc main_arg3)) :=
    ((W14_arr m ρ c 2).trans (Tiles.array5 (V13 m ρ) c)).trans (by
      show addf (W13 m ρ c (Proc.devRef .tc main_v57)) (W13 m ρ c (Proc.devRef .tc main_v69)) = _
      rw [b13_v57, b13_v69]
      rfl)
  -- the last stretch
  exact Stages.tail6 (W14 m ρ c) _ _ _ _ b14_v70

end Cert.KernelIdeal.Whole

end
-- ==== Proof.lean ====
/-
  A three-layer graph smoothing over a bipartite user–item graph, the kernel's tiled form against the plain one.

  Both programs build the directed edge list of the symmetric bipartite graph (every user–item edge in both directions),
  give each edge the weight `1/sqrt(deg u) · 1/sqrt(deg v)` (zero at a node of degree zero), and three times replace the node
  table `x` by `segment_sum(w · x[src], dst)`, adding each new table onto the running sum; the result is that sum divided
  by 4, restricted to the users' rows. The kernel computes `w · x[src]` and the running sum in tiled regions (200 tiles of
  10000 edge rows; 15 tiles of 10000 node rows) and everything else by the same host operations as the reference. A
  tiled entrywise product or sum leaves in its output array exactly the entrywise product or sum of its whole input
  arrays, so the two programs are the same composition of operations applied to the same arguments: their results are
  equal at every float instance, in particular as extended reals, and no algebraic law and no finiteness of the
  inputs is used.

  The pieces: Proof/Tiles.lean (what each region leaves in its output array), Proof/Stages.lean (each stretch of host
  operations, in the reference's vocabulary), Proof/KernelRun.lean (the run, with the result buffer named),
  Proof/Chain.lean (the result buffer's final contents as the reference's last stage of the launch arguments);
  Proof/RefRun.lean and Proof/RefRead.lean are the reference's run and its stages. The ideal pass rewrote nothing, so
  the kernel's idealization is the kernel's own text read at the ideal instance and `preserves` has nothing to state.
-/
import proofs.«168864_j50646254355232_1_alg».proof.Defs
import proofs.«168864_j50646254355232_1_alg».proof.Proof.Gen.Kernel
import proofs.«168864_j50646254355232_1_alg».proof.Proof.Gen.Kernel.Frame
import proofs.«168864_j50646254355232_1_alg».proof.Proof.Gen.KernelIdeal
import proofs.«168864_j50646254355232_1_alg».proof.Proof.Gen.KernelIdeal.Frame
import proofs.«168864_j50646254355232_1_alg».proof.Proof.Gen.ReferenceIdeal
import proofs.«168864_j50646254355232_1_alg».proof.Proof.Gen.Pre_finite_inputs
import proofs.«168864_j50646254355232_1_alg».proof.Proof.RefRead
import proofs.«168864_j50646254355232_1_alg».proof.Proof.KernelRun
import proofs.«168864_j50646254355232_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs, and leaves its arguments as launched. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the four arguments both programs run, and both result arrays end at the reference's
    last stage of those arguments: the kernel's by walking its segments (`Whole.result`), the reference's by its run. -/
theorem algebraic : Cert.algebraic_KernelIdeal_ReferenceIdeal := by
  intro m ρ m' ρ' _ hagree
  refine ⟨fun c => Cert.ReferenceIdeal.ReadP.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Whole.result (F := Ideal) m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v76_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
